-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x32 : Shape := ⟨2, ![1000000, 32]⟩
abbrev S32 : Shape := ⟨1, ![32]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S1000000x32 .f32) (main_arg1 : FVec F S32 .f32) : IVec S_ 1 :=
  let main_v0 : FVec F S1000000x32 .f32 := Host.absf main_arg0
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  main_v8
-- ==== Kernel.lean ====
abbrev S1000000x32 : Shape := ⟨2, ![1000000, 32]⟩
abbrev S32 : Shape := ⟨1, ![32]⟩
abbrev S250000x128 : Shape := ⟨2, ![250000, 128]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S10x1x1 : Shape := ⟨3, ![10, 1, 1]⟩
abbrev S25000x128 : Shape := ⟨2, ![25000, 128]⟩
abbrev S1x1x1 : Shape := ⟨3, ![1, 1, 1]⟩
abbrev S128x4 : Shape := ⟨2, ![128, 4]⟩
abbrev S25000x4 : Shape := ⟨2, ![25000, 4]⟩
abbrev S1x25000x4 : Shape := ⟨3, ![1, 25000, 4]⟩
abbrev S1 : Shape := ⟨1, ![1]⟩
abbrev S_ : Shape := ⟨0, ![]⟩

abbrev nBuf : Space → Nat
  | .hbm => 10
  | .vmem => 5
  | .smem => 0
  | _ => 0

abbrev bufTy : (tb : Table) → Fin (tcTables nBuf tb) → BufTy
  | .hbm, ⟨0, _⟩ => ⟨S1000000x32, .f32⟩
  | .hbm, ⟨1, _⟩ => ⟨S32, .f32⟩
  | .hbm, ⟨2, _⟩ => ⟨S250000x128, .f32⟩
  | .hbm, ⟨3, _⟩ => ⟨S1x32, .f32⟩
  | .hbm, ⟨4, _⟩ => ⟨S4x32, .f32⟩
  | .hbm, ⟨5, _⟩ => ⟨S128, .f32⟩
  | .hbm, ⟨6, _⟩ => ⟨S1x128, .f32⟩
  | .hbm, ⟨7, _⟩ => ⟨S10x1x1, .f32⟩
  | .hbm, ⟨8, _⟩ => ⟨S_, .f32⟩
  | .hbm, ⟨9, _⟩ => ⟨S_, .f32⟩
  | .local _ .vmem, ⟨0, _⟩ => ⟨S25000x128, .f32⟩
  | .local _ .vmem, ⟨1, _⟩ => ⟨S25000x128, .f32⟩
  | .local _ .vmem, ⟨2, _⟩ => ⟨S1x128, .f32⟩
  | .local _ .vmem, ⟨3, _⟩ => ⟨S1x1x1, .f32⟩
  | .local _ .vmem, ⟨4, _⟩ => ⟨S1x1x1, .f32⟩
  | _, _ => ⟨S1000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S25000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1000000x32_S250000x128 : S1000000x32.ShapeCasts S250000x128
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  shapeCasts_S128_S1x128 : S128.ShapeCasts S1x128
  inb_S25000x128_S25000x128_0_0 : ∀ a, (![0, 0] : Fin 2 → Nat) a + S25000x128.size a ≤ S25000x128.size a
  h_S25000x128 : 0 < S25000x128.numel
  shapeCasts_S25000x128_S25000x128 : S25000x128.ShapeCasts S25000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S25000x128 : S1x128.Broadcasts S25000x128
  iota_S128x4_d0_w32 : S128x4.Iotas .tc 32 [0]
  iota_S128x4_d1_w32 : S128x4.Iotas .tc 32 [1]
  natLt_1_32 : 1 < 32
  shapeCasts_S25000x4_S1x25000x4 : S25000x4.ShapeCasts S1x25000x4
  reduces_S1x25000x4_S1 : S1x25000x4.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  reducesTo_S10x1x1_S_d0_1_2 : S10x1x1.ReducesTo [0, 1, 2] S_
  h_S_ : 0 < S_.numel
  dot_S25000x128_S128x4_S25000x4_1_0_0_1_n_n_wf : DotDims.WF S25000x128 S128x4 S25000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x128.size a ≤ S250000x128.size a
  hwx0_0 : ∀ i : grid0.Coords, EltTy.bits .f32 = 32 ∨ (Rect.block (s := S250000x128) S25000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S10x1x1.size a
  hwx0_2 : ∀ i : grid0.Coords, EltTy.bits .f32 = 32 ∨ (Rect.block (s := S10x1x1) S1x1x1.size (cc0_transform_2 i) (hinb0_2 i)).WholeWords (EltTy.packing .f32)

variable [Facts₀]

def dot_S25000x128_S128x4_S25000x4_1_0_0_1_n_n : DotDims S25000x128 S128x4 S25000x4 where
  lhsContracting := [1]
  rhsContracting := [0]
  lhsNonContracting := [0]
  rhsNonContracting := [1]
  lhsBatch := []
  rhsBatch := []
  wf := dot_S25000x128_S128x4_S25000x4_1_0_0_1_n_n_wf

abbrev win0_0 : Pipeline.Window sig grid0 :=
  Pipeline.Window.ofSpec (Memref.whole main_v0) S25000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000x32 : Shape := ⟨2, ![1000000, 32]⟩
abbrev S32 : Shape := ⟨1, ![32]⟩
abbrev S1x32 : Shape := ⟨2, ![1, 32]⟩
abbrev S_ : Shape := ⟨0, ![]⟩
abbrev S1000000 : Shape := ⟨1, ![1000000]⟩

abbrev nBuf : Space → Nat
  | .hbm => 10
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S32, .f32⟩
  | .hbm, ⟨2, _⟩ => ⟨S1x32, .f32⟩
  | .hbm, ⟨3, _⟩ => ⟨S1000000x32, .f32⟩
  | .hbm, ⟨4, _⟩ => ⟨S1000000x32, .f32⟩
  | .hbm, ⟨5, _⟩ => ⟨S1000000x32, .f32⟩
  | .hbm, ⟨6, _⟩ => ⟨S_, .f32⟩
  | .hbm, ⟨7, _⟩ => ⟨S1000000, .f32⟩
  | .hbm, ⟨8, _⟩ => ⟨S_, .f32⟩
  | .hbm, ⟨9, _⟩ => ⟨S_, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  reducesTo_S1000000x32_S1000000_d1 : S1000000x32.ReducesTo [1] S1000000
  h_S_ : 0 < S_.numel
  reducesTo_S1000000_S_d0 : S1000000.ReducesTo [0] S_

variable [Facts₀]

class Facts : Prop extends Facts₀ where

variable [Facts]
-- ==== Proof.GroupMatrix.lean ====
/-
  The kernel's 0/1 matrix. The body numbers the 128 lanes and the 4 groups by two iotas, divides the lane number
  by 32 rounding DOWN — the printed form is the truncated quotient, less one where the signs of dividend and divisor
  differ and the remainder is not zero — and compares the quotient with the group number; the one-bit answer is
  widened and converted to a float. For a lane `l < 128` and a group `j < 4` the word is `1` exactly when
  `l / 32 = j` (checked on all 512 pairs), so the matrix entry is the extended real `1` there and `0` elsewhere.
-/
import proofs.«136762_j20109036880302_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The group test on one lane number `L` and one group number `J`, as the body spells it on words. -/
def groupWord (L J : BitVec 32) : BitVec 32 :=
  (IntOp.cmpi .eq
    (Scalar.select
      (IntOp.andi
        (IntOp.cmpi .ne
          (IntOp.subi ((IntOp.cmpi .sgt L 0#32).setWidth 32) ((IntOp.cmpi .slt L 0#32).setWidth 32))
          (Scalar.subi (Scalar.extui (Scalar.cmpi .sgt 32#32 0#32)) (Scalar.extui (Scalar.cmpi .slt 32#32 0#32))))
        (IntOp.cmpi .ne (IntOp.remsi .vector L 32#32) 0#32))
      (IntOp.subi (IntOp.divsi .vector L 32#32) 1#32)
      (IntOp.divsi .vector L 32#32))
    J).setWidth 32

/-- On the 128 lanes and 4 groups the word is the indicator of `l / 32 = j`. -/
theorem groupWord_eq : ∀ (l : Fin 128) (j : Fin 4),
    groupWord (BitVec.ofNat 32 l.val) (BitVec.ofNat 32 j.val) = if l.val / 32 = j.val then 1#32 else 0#32 := by
  decide +kernel

variable {F : FTy → Type} [FloatOps F]

/-- The body's 0/1 matrix, in the body's own operations. -/
def groupMat : FVec F S128x4 .f32 :=
  have v7 : IVec S128x4 32 := iota .tc S128x4 32 [0] iota_S128x4_d0_w32
  have v8 : IVec S128x4 32 := iota .tc S128x4 32 [1] iota_S128x4_d1_w32
  have v9 : IVec S128x4 32 := broadcast S128x4 32#32
  have v10 : IVec S128x4 32 := divsi v7 v9
  have v11 : IVec S128x4 32 := broadcast S128x4 0#32
  have v12 : IVec S128x4 1 := cmpi .sgt v7 v11
  have v13 : IVec S128x4 32 := extui 32 v12 natLt_1_32
  have v14 : IVec S128x4 32 := broadcast S128x4 0#32
  have v15 : IVec S128x4 1 := cmpi .slt v7 v14
  have v16 : IVec S128x4 32 := extui 32 v15 natLt_1_32
  have v17 : IVec S128x4 32 := subi v13 v16
  let v18 : BitVec 1 := Scalar.cmpi .sgt 32#32 0#32
  let v19 : BitVec 32 := Scalar.extui v18
  let v20 : BitVec 1 := Scalar.cmpi .slt 32#32 0#32
  let v21 : BitVec 32 := Scalar.extui v20
  let v22 : BitVec 32 := Scalar.subi v19 v21
  have v23 : IVec S128x4 32 := broadcast S128x4 v22
  have v24 : IVec S128x4 1 := cmpi .ne v17 v23
  have v25 : IVec S128x4 32 := broadcast S128x4 32#32
  have v26 : IVec S128x4 32 := remsi v7 v25
  have v27 : IVec S128x4 32 := broadcast S128x4 0#32
  have v28 : IVec S128x4 1 := cmpi .ne v26 v27
  have v29 : IVec S128x4 1 := andi v24 v28
  have v30 : IVec S128x4 32 := broadcast S128x4 1#32
  have v31 : IVec S128x4 32 := subi v10 v30
  have v32 : IVec S128x4 32 := select v29 v31 v10
  have v33 : IVec S128x4 1 := cmpi .eq v32 v8
  have v34 : IVec S128x4 32 := extui 32 v33 natLt_1_32
  sitofp .f32 v34

/-- Entry (l, j) of the matrix converts the group word of the two iotas' entries. -/
theorem groupMat_word (l : Fin 128) (j : Fin 4) :
    groupMat (F := F) (ix2 l j) = FloatOps.sitofp .f32
      (groupWord (iota .tc S128x4 32 [0] iota_S128x4_d0_w32 (ix2 l j)) (iota .tc S128x4 32 [1] iota_S128x4_d1_w32 (ix2 l j))) :=
  rfl

/-- At the extended reals entry (l, j) of the matrix is `1` when lane `l` is in group `j`, else `0`. -/
theorem groupMat_apply (l : Fin 128) (j : Fin 4) :
    groupMat (F := Ideal) (ix2 l j) = if l.val / 32 = j.val then (1 : EReal) else 0 := by
  have h0 : iota .tc S128x4 32 [0] iota_S128x4_d0_w32 (ix2 l j) = BitVec.ofNat 32 l.val :=
    iota_single_apply .tc S128x4 32 0 iota_S128x4_d0_w32 (ix2 l j)
  have h1 : iota .tc S128x4 32 [1] iota_S128x4_d1_w32 (ix2 l j) = BitVec.ofNat 32 j.val :=
    iota_single_apply .tc S128x4 32 1 iota_S128x4_d1_w32 (ix2 l j)
  rw [groupMat_word, h0, h1, groupWord_eq]
  split
  · show (((1#32 : BitVec 32).toInt : ℝ) : EReal) = 1
    rw [show (1#32 : BitVec 32).toInt = 1 from by decide]; simp
  · show (((0#32 : BitVec 32).toInt : ℝ) : EReal) = 0
    rw [show (0#32 : BitVec 32).toInt = 0 from by decide]; simp

end Cert.KernelIdeal.Tile

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibMinFold.lean ====
/-
  Minima over finite index sets on the extended reals, as the reductions of a kernel and of a host program
  compute them. A fold of `min` from `⊤` is the greatest lower bound of the entries: a number is below it exactly
  when it is below every entry (`le_fold_min_top`). Hence the fold does not change along a surjective change of
  index (`fold_min_top_comp_surj`), and a minimum of minima is the minimum over the pairs (`fold_min_top_nested`).
  A `vector.multi_reduction <minimumf>` and a one-operand `stablehlo.reduce` with a `minimum` body, into a result
  whose axes all have size one (or of rank zero), run over every source index: each is the fold of `min` from
  its initial value over all of them (`multiReduction_minimumf_total`, `hostReduce_minimumf_total`).
  The f32 pattern `0x7F800000` denotes `⊤` and `0x00000000` denotes `0`.
-/
import Mathlib
import Idealize.ShloMosaic.PureOps.Ideal.Laws

namespace Cert.LibMinFold

open Idealize.ShloMosaic

/-- The f32 pattern of plus infinity is the top extended real. -/
theorem ofBits_posInf_f32 : Ideal.ofBits .f32 0x7F800000#32 = (⊤ : EReal) := by simp [Ideal.ofBits, Ideal.ieee]

/-- A number is below the fold of `min` from `⊤` exactly when it is below every entry. -/
theorem le_fold_min_top {ι : Type*} (s : Finset ι) (f : ι → EReal) (c : EReal) :
    c ≤ s.fold min ⊤ f ↔ ∀ i ∈ s, c ≤ f i := by
  rw [Finset.le_fold_min]
  exact ⟨fun h => h.2, fun h => ⟨le_top, h⟩⟩

/-- Two folds of `min` from `⊤` with the same lower bounds are equal. -/
theorem fold_min_top_eq {ι κ : Type*} (s : Finset ι) (t : Finset κ) (f : ι → EReal) (g : κ → EReal)
    (h : ∀ c : EReal, (∀ i ∈ s, c ≤ f i) ↔ ∀ k ∈ t, c ≤ g k) : s.fold min ⊤ f = t.fold min ⊤ g :=
  eq_of_forall_le_iff fun c => by rw [le_fold_min_top, le_fold_min_top]; exact h c

/-- The minimum over all indices does not change along a surjective change of index. -/
theorem fold_min_top_comp_surj {ι κ : Type*} [Fintype ι] [Fintype κ] (e : ι → κ) (he : Function.Surjective e)
    (f : κ → EReal) : Finset.univ.fold min ⊤ (fun i => f (e i)) = Finset.univ.fold min ⊤ f :=
  fold_min_top_eq _ _ _ _ fun c =>
    ⟨fun h k _ => by obtain ⟨i, rfl⟩ := he k; exact h i (Finset.mem_univ i), fun h i _ => h (e i) (Finset.mem_univ _)⟩

/-- A minimum of minima is the minimum over the pairs. -/
theorem fold_min_top_nested {ι κ : Type*} [Fintype ι] [Fintype κ] (f : ι → κ → EReal) :
    Finset.univ.fold min ⊤ (fun i => Finset.univ.fold min ⊤ (f i))
      = Finset.univ.fold min ⊤ (fun p : ι × κ => f p.1 p.2) :=
  fold_min_top_eq _ _ _ _ fun c =>
    ⟨fun h p _ => (le_fold_min_top _ _ _).mp (h p.1 (Finset.mem_univ _)) p.2 (Finset.mem_univ _),
     fun h i _ => (le_fold_min_top _ _ _).mpr fun k _ => h (i, k) (Finset.mem_univ _)⟩

/-- A kernel's `vector.multi_reduction <minimumf>` from the pattern of plus infinity into a shape whose axes all have
    size one is, at its one index, the minimum over every source index. -/
theorem multiReduction_minimumf_total {s t : Shape} {axes : List (Fin s.rank)} (src : FVec Ideal s .f32)
    (h : s.Reduces axes t) (ht : ∀ b, t.size b = 1) (hφ : FKind.Formats .f32)
    (hacc : (0x7F800000#32 : BitVec 32) = FKind.minimumf.neutral .f32 hφ) (j : t.Idx) :
    multiReduction .minimumf axes t src 0x7F800000#32 h hφ hacc j = Finset.univ.fold min ⊤ src := by
  rw [multiReduction_minimumf_eq_fold]
  rw [Finset.filter_true_of_mem fun i _ => funext fun b => Fin.ext (by
    have := (h.drop i b).isLt; have := (j b).isLt; have := ht b; omega)]
  show Finset.univ.fold min (Ideal.ofBits .f32 0x7F800000#32) src = _
  rw [ofBits_posInf_f32]

/-- A host `stablehlo.reduce` with a `minimum` body into such a shape (a rank-zero result among them) is the fold of
    `min` from the initial value's element over every operand index. -/
theorem hostReduce_minimumf_total {s t u : Shape} {axes : List (Fin s.rank)} (x : s.Idx → EReal) (init : u.Idx → EReal)
    (h : s.ReducesTo axes t) (ht : ∀ b, t.size b = 1) (hu : 0 < u.numel) (j : t.Idx) :
    Host.reduce (FloatOps.minimumf (F := Ideal) (φ := .f32)) x init h hu j
      = Finset.univ.fold min (init (Shape.Idx.first hu)) x := by
  rw [Host.reduce_eq_fold]
  rw [Finset.filter_true_of_mem fun i _ => funext fun b => Fin.ext (by
    have := (h.drop i b).isLt; have := (j b).isLt; have := ht b; omega)]
  rfl

end Cert.LibMinFold
-- ==== Proof.MinSqDist.lean ====
/-
  The specification. For a table `pp` of 1,000,000 rows of 32 numbers and a row `ph` of 32 numbers, the squared
  distance of row `r` to `ph` is the sum over the 32 columns of the squared differences, and the result is the least
  of the 1,000,000 squared distances (the minimum from `⊤`).

  The kernel packs four consecutive rows of the table into one row of 128 lanes and recovers each of the four
  sums of 32 as a product with a 0/1 matrix: lane `l` belongs to group `l / 32`. On the extended reals
  `x · 1 = x` and `x · 0 = 0` for every `x`, the infinities included, so the weighted sum over the 128 lanes is the
  plain sum over the 32 lanes of the group (`sum_group`); no finiteness is needed.
-/
import Mathlib
import Idealize.ShloMosaic.Lib.ValueIdx
import Idealize.ShloMosaic.PureOps.Ideal

noncomputable section

namespace Cert.MinSqDist

open Idealize.ShloMosaic Idealize.ShloMosaic.ValueIdx

/-- Lane `32 · j + a` of a packed row: column `a` of the `j`-th of its four table rows. -/
def lane (j : Fin 4) (a : Fin 32) : Fin 128 := ⟨32 * j.val + a.val, by omega⟩

theorem lane_val (j : Fin 4) (a : Fin 32) : (lane j a).val = 32 * j.val + a.val := rfl

/-- The squared distance of table row `r` to the measured row. -/
def sqdist (pp : (⟨2, ![1000000, 32]⟩ : Shape).Idx → EReal) (ph : (⟨1, ![32]⟩ : Shape).Idx → EReal) (r : Fin 1000000) : EReal :=
  ∑ a : Fin 32, (pp (ix2 r a) - ph (ix1 a)) * (pp (ix2 r a) - ph (ix1 a))

/-- The least squared distance over the table. -/
def minSqDist (pp : (⟨2, ![1000000, 32]⟩ : Shape).Idx → EReal) (ph : (⟨1, ![32]⟩ : Shape).Idx → EReal) : EReal :=
  Finset.univ.fold min ⊤ (sqdist pp ph)

/-- A sum over the 128 lanes weighted by the indicator of group `j` is the sum over the group's 32 lanes. -/
theorem sum_group (f : Fin 128 → EReal) (j : Fin 4) :
    ∑ l : Fin 128, f l * (if l.val / 32 = j.val then (1 : EReal) else 0) = ∑ a : Fin 32, f (lane j a) := by
  have h1 : ∀ l : Fin 128, f l * (if l.val / 32 = j.val then (1 : EReal) else 0) = if l.val / 32 = j.val then f l else 0 := by
    intro l; split <;> simp
  rw [Finset.sum_congr rfl fun l _ => h1 l, Finset.sum_ite, Finset.sum_const_zero, add_zero]
  symm
  refine Finset.sum_nbij' (fun a => lane j a) (fun l => ⟨l.val % 32, Nat.mod_lt _ (by decide)⟩) ?_ ?_ ?_ ?_ ?_
  · intro a _
    simp only [Finset.mem_filter, Finset.mem_univ, true_and, lane_val]
    have := a.isLt; omega
  · intro l _; exact Finset.mem_univ _
  · intro a _; apply Fin.ext; show (32 * j.val + a.val) % 32 = a.val; have := a.isLt; omega
  · intro l hl
    simp only [Finset.mem_filter, Finset.mem_univ, true_and] at hl
    apply Fin.ext; show 32 * j.val + l.val % 32 = l.val; omega
  · intro a _; rfl

/-- Table row `100000 · t + 4 · r + j`: the `j`-th of the four rows packed in row `r` of tile `t`. -/
def tableRow (t : Fin 10) (r : Fin 25000) (j : Fin 4) : Fin 1000000 :=
  ⟨100000 * t.val + 4 * r.val + j.val, by omega⟩

/-- Every table row is one of them. -/
theorem tableRow_surjective : Function.Surjective (fun q : Fin 10 × (Fin 25000 × Fin 4) => tableRow q.1 q.2.1 q.2.2) := by
  intro r
  refine ⟨(⟨r.val / 100000, by have := r.isLt; omega⟩, ⟨r.val % 100000 / 4, by omega⟩, ⟨r.val % 4, by omega⟩), ?_⟩
  apply Fin.ext
  show 100000 * (r.val / 100000) + 4 * (r.val % 100000 / 4) + r.val % 4 = r.val
  omega

end Cert.MinSqDist

end
-- ==== Proof.TilePayload.lean ====
/-
  What the body computes on one tile, at the extended reals. From the tile `x0` (25,000 packed rows of 128 lanes)
  and the tiled row `x1` the body forms the squared differences lane by lane, multiplies the [25000, 128] matrix
  of squares by the 0/1 group matrix — entry (r, j) of the product is the sum of row r's squares over the 32 lanes of
  group j, because a weight is 1 on the group's lanes and 0 elsewhere —, and takes the minimum of the 100,000
  entries from plus infinity; that one number fills the [1, 1, 1] block the point writes back.
-/
import proofs.«136762_j20109036880302_2_alg».proof.Proof.Gen.KernelIdeal.Skeleton
import proofs.«136762_j20109036880302_2_alg».proof.Proof.GroupMatrix
import proofs.«136762_j20109036880302_2_alg».proof.Proof.LibDot
import proofs.«136762_j20109036880302_2_alg».proof.Proof.LibMinFold
import proofs.«136762_j20109036880302_2_alg».proof.Proof.MinSqDist
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.MinSqDist

/-- The product's dimension numbers are those of a plain rows-by-columns product [25000, 128] × [128, 4]. -/
theorem dot_plain : Cert.LibDot.Plain (M := 25000) (K := 128) (N := 4) dot_S25000x128_S128x4_S25000x4_1_0_0_1_n_n where
  hrank := rfl
  hs := rfl
  hl0 := fun _ _ => rfl
  hl1 := fun _ _ => rfl
  hr0 := fun _ _ => rfl
  hr1 := fun _ _ => rfl

section Stages
variable {F : FTy → Type} [FloatOps F]

/-- The squared differences of a tile and the tiled row, in the body's operations. -/
def sqDiff (x0 : Vec F S25000x128 .f32) (x1 : Vec F S1x128 .f32) : FVec F S25000x128 .f32 :=
  have v1 : FVec F S25000x128 .f32 := shapeCast S25000x128 x0 shapeCasts_S25000x128_S25000x128
  have v3 : FVec F S1x128 .f32 := shapeCast S1x128 x1 shapeCasts_S1x128_S1x128
  have v4 : FVec F S25000x128 .f32 := broadcastTo S25000x128 v3 broadcasts_S1x128_S25000x128
  have v5 : FVec F S25000x128 .f32 := subf v1 v4
  mulf v5 v5

/-- The body's result, stage by stage: squares, group sums by the matrix product, the minimum, the block. -/
theorem pay_stages (x0 : Vec F S25000x128 .f32) (x1 : Vec F S1x128 .f32) :
    k0_pay1 x0 x1 = broadcast S1x1x1 (extractAt ![0, 0, 0]
      (shapeCast S1x1x1 (multiReduction .minimumf [1, 2] S1 (shapeCast S1x25000x4
        (matmul dot_S25000x128_S128x4_S25000x4_1_0_0_1_n_n none (sqDiff x0 x1) groupMat (constant S25000x4 .f32 0x00000000#32))
        shapeCasts_S25000x4_S1x25000x4) 0x7F800000#32 reduces_S1x25000x4_S1 (.inl rfl) rfl) shapeCasts_S1_S1x1x1)
      inpos_S1x1x1_p0_0_0) := rfl

end Stages

/-- A squared difference at (r, l): the tile's entry less the tiled row's lane l, squared. -/
theorem sqDiff_apply (x0 : Vec Ideal S25000x128 .f32) (x1 : Vec Ideal S1x128 .f32) (r : Fin 25000) (l : Fin 128) :
    sqDiff x0 x1 (ix2 r l) = (x0 (ix2 r l) - x1 (ix2 (0 : Fin 1) l)) * (x0 (ix2 r l) - x1 (ix2 (0 : Fin 1) l)) := by
  have hb : broadcastTo S25000x128 (shapeCast S1x128 x1 shapeCasts_S1x128_S1x128) broadcasts_S1x128_S25000x128 (ix2 r l)
      = x1 (ix2 (0 : Fin 1) l) := by
    rw [shapeCast_self]
    exact broadcastTo_apply x1 _ (ix2 r l) (ix2 (0 : Fin 1) l) (fun a => by
      match a with
      | ⟨0, _⟩ => rfl
      | ⟨1, _⟩ => rfl)
  show (shapeCast S25000x128 x0 shapeCasts_S25000x128_S25000x128 (ix2 r l)
        - broadcastTo S25000x128 (shapeCast S1x128 x1 shapeCasts_S1x128_S1x128) broadcasts_S1x128_S25000x128 (ix2 r l))
      * (shapeCast S25000x128 x0 shapeCasts_S25000x128_S25000x128 (ix2 r l)
        - broadcastTo S25000x128 (shapeCast S1x128 x1 shapeCasts_S1x128_S1x128) broadcasts_S1x128_S25000x128 (ix2 r l)) = _
  rw [hb, shapeCast_self]

/-- THE TILE'S NUMBER: the least, over the tile's 25,000 packed rows and 4 groups, of the sum over the group's 32
    lanes of the squared differences. -/
theorem pay_apply (x0 : Vec Ideal S25000x128 .f32) (x1 : Vec Ideal S1x128 .f32) (y : S1x1x1.Idx) :
    k0_pay1 x0 x1 y = Finset.univ.fold min ⊤ (fun p : Fin 25000 × Fin 4 =>
      ∑ a : Fin 32, (x0 (ix2 p.1 (lane p.2 a)) - x1 (ix2 (0 : Fin 1) (lane p.2 a)))
        * (x0 (ix2 p.1 (lane p.2 a)) - x1 (ix2 (0 : Fin 1) (lane p.2 a)))) := by
  rw [pay_stages, broadcast_apply]
  unfold extractAt
  refine (shapeCast_apply _ shapeCasts_S1_S1x1x1 _ (ix1 (0 : Fin 1)) ?_).trans ?_
  · rw [Shape.rowMajor_val_one, Shape.rowMajor_val_three]; rfl
  refine (Cert.LibMinFold.multiReduction_minimumf_total _ reduces_S1x25000x4_S1
    (fun b => by match b with | ⟨0, _⟩ => rfl) (.inl rfl) rfl (ix1 (0 : Fin 1))).trans ?_
  refine (Cert.LibMinFold.fold_min_top_comp_surj
    (fun p : Fin 25000 × Fin 4 => (ix3 (0 : Fin 1) p.1 p.2 : S1x25000x4.Idx)) ?_ _).symm.trans ?_
  · intro i
    refine ⟨(i 1, i 2), ?_⟩
    funext a
    match a with
    | ⟨0, _⟩ => apply Fin.ext; have h : (i 0).val < 1 := (i 0).isLt; show 0 = (i 0).val; omega
    | ⟨1, _⟩ => rfl
    | ⟨2, _⟩ => rfl
  refine congrArg (Finset.univ.fold min ⊤) (funext fun p => ?_)
  obtain ⟨r, j⟩ := p
  refine (shapeCast_apply _ shapeCasts_S25000x4_S1x25000x4 (ix3 (0 : Fin 1) r j) (ix2 r j) ?_).trans ?_
  · rw [Shape.rowMajor_val_two, Shape.rowMajor_val_three]
    show r.val * 4 + j.val = (0 * 25000 + r.val) * 4 + j.val
    omega
  refine (Cert.LibDot.matmul_ix2 dot_plain none (sqDiff x0 x1) groupMat r j).trans ?_
  rw [Finset.sum_congr rfl fun k _ => by rw [sqDiff_apply, groupMat_apply]]
  exact sum_group (fun k => (x0 (ix2 r k) - x1 (ix2 (0 : Fin 1) k)) * (x0 (ix2 r k) - x1 (ix2 (0 : Fin 1) k))) j

end Cert.KernelIdeal.Tile

end
-- ==== Proof.TileArray.lean ====
/-
  From the tiles to the array of partial minima. Grid point `t` of ten stages rows 25000·t … 25000·t + 24999 of the
  packed table and the whole tiled row, and writes its one number to entry (t, 0, 0) of the [10, 1, 1] result array.
  So what point `t` writes back is block `t` of ONE function of the region's operands — entry (t, 0, 0) is the
  minimum over tile `t` (`tileMin`) —, the ten blocks cover the array, and after the run the array holds that
  function (`partials`).
-/
import proofs.«136762_j20109036880302_2_alg».proof.Proof.Gen.KernelIdeal.Frame
import proofs.«136762_j20109036880302_2_alg».proof.Proof.TilePayload
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.TcCoe Idealize.SL.Sem
open Idealize.ShloMosaic.Pipeline (Dat)
open Idealize.ShloMosaic.ValueIdx Cert.MinSqDist

/-- Packed row `25000 · t + r`: row `r` of tile `t`. -/
def packedRow (t : Fin 10) (r : Fin 25000) : Fin 250000 := ⟨25000 * t.val + r.val, by omega⟩

/-- The sum over the 32 lanes of group `p.2` of the squared differences between row `p.1` of tile `t` of the packed
    table `A` and the tiled row `B`. -/
def groupSum (A : S250000x128.Idx → EReal) (B : S1x128.Idx → EReal) (t : Fin 10) (p : Fin 25000 × Fin 4) : EReal :=
  ∑ a : Fin 32, (A (ix2 (packedRow t p.1) (lane p.2 a)) - B (ix2 (0 : Fin 1) (lane p.2 a)))
    * (A (ix2 (packedRow t p.1) (lane p.2 a)) - B (ix2 (0 : Fin 1) (lane p.2 a)))

/-- The minimum over tile `t`: the least of its 25,000 × 4 group sums. -/
def tileMin (A : S250000x128.Idx → EReal) (B : S1x128.Idx → EReal) (t : Fin 10) : EReal :=
  Finset.univ.fold min ⊤ (groupSum A B t)

/-- The array of the ten partial minima. -/
def partials (A : S250000x128.Idx → EReal) (B : S1x128.Idx → EReal) : S10x1x1.Idx → EReal :=
  fun z => tileMin A B ⟨(z 0).val, (z 0).isLt⟩

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the ten points: the table's window and the result's window are at block `t` on
    their first axis and block 0 elsewhere; the tiled row's window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The table's block at point `t`, at (r, l), is the packed table at row 25000·t + r. -/
theorem tile_read (c : Dev nD) (t : Fin cfg0.N) (ht : t.val < 10) (r : Fin 25000) (l : Fin 128) :
    iblk m c 0 t (ix2 r l) = V m c main_v0 (ix2 (packedRow ⟨t.val, ht⟩ r) l) := by
  obtain ⟨e0, e1, -⟩ := idx_facts t
  show V m c main_v0 (((cfg0.win 0).blk t).view.emb (ix2 r l)) = V m c main_v0 (ix2 (packedRow ⟨t.val, ht⟩ r) l)
  refine congrArg (V m c main_v0) ?_
  funext a; apply Fin.ext
  match a with
  | ⟨0, _⟩ => show win0_0.index t (0 : Fin 2) * 25000 + 1 * r.val = 25000 * t.val + r.val; omega
  | ⟨1, _⟩ => show win0_0.index t (1 : Fin 2) * 128 + 1 * l.val = l.val; omega

/-- The tiled row's block at every point is the tiled row. -/
theorem row_read (c : Dev nD) (t : Fin cfg0.N) (l : Fin 128) :
    iblk m c 1 t (ix2 (0 : Fin 1) l) = V m c main_v4 (ix2 (0 : Fin 1) l) := by
  obtain ⟨-, -, e2, e3, -⟩ := idx_facts t
  show V m c main_v4 (((cfg0.win 1).blk t).view.emb (ix2 (0 : Fin 1) l)) = V m c main_v4 (ix2 (0 : Fin 1) l)
  refine congrArg (V m c main_v4) ?_
  funext a; apply Fin.ext
  match a with
  | ⟨0, _⟩ => show win0_1.index t (0 : Fin 2) * 1 + 1 * 0 = 0; omega
  | ⟨1, _⟩ => show win0_1.index t (1 : Fin 2) * 128 + 1 * l.val = l.val; omega

/-- The number point `t` computes is the minimum over tile `t`: entry (t, 0, 0) of the array of partial minima,
    which is where the point's block sits. -/
theorem tile_value (c : Dev nD) (t : Fin cfg0.N) (y : S1x1x1.Idx) :
    k0_pay1 (iblk m c 0 t) (iblk m c 1 t) y
      = partials (V m c main_v0) (V m c main_v4) (((cfg0.win 2).blk t).view.emb y) := by
  have ht : t.val < 10 := by have h := t.isLt; have hN : cfg0.N = 10 := N_0; omega
  obtain ⟨-, -, -, -, e4, -, -⟩ := idx_facts t
  refine (pay_apply (iblk m c 0 t) (iblk m c 1 t) y).trans ?_
  unfold partials
  refine Eq.trans ?_ (congrArg (tileMin (V m c main_v0) (V m c main_v4)) (Fin.ext ?_ : (⟨t.val, ht⟩ : Fin 10) = _))
  · unfold tileMin
    refine congrArg (Finset.univ.fold min ⊤) (funext fun p => ?_)
    unfold groupSum
    refine Finset.sum_congr rfl fun a _ => ?_
    rw [tile_read m c t ht, row_read m c t]
  · have hy : (y 0).val < 1 := (y 0).isLt
    show t.val = win0_2.index t (0 : Fin 3) * 1 + 1 * (y 0).val
    omega

/-- A block's contents `X` that agree, entry by entry, with an array `G` read where the block sits are what the
    write-back of `X` at point `t` writes of `G`. -/
theorem flushed_of (t : Fin cfg0.N) (X : Vec Ideal S1x1x1 .f32) (G : S10x1x1.Idx → EReal)
    (hX : ∀ y : S1x1x1.Idx, X y = G (((cfg0.win 2).blk t).view.emb y)) :
    (cfg0.win 2).cut (grid0.coords t) X = ((cfg0.win 2).blk t).view.read (Elt Ideal) G :=
  funext fun y => hX y

/-- WHAT POINT `t` WRITES BACK is block `t` of the array of partial minima of the region's operands. -/
theorem flushed_eq (c : Dev nD) (t : Fin cfg0.N) :
    (dats m 0 c).flushed 2 t
      = ((cfg0.win 2).blk t).view.read (Elt Ideal) (partials (V m c main_v0) (V m c main_v4)) := by
  show (cfg0.win 2).cut (grid0.coords t) ((dats m 0 c).after 2 t) = _
  rw [after0_2]
  unfold out0_2
  rw [View.canon_unit_zero hz3]
  simp only [View.ld_unit_zero (S := S25000x128) hz2, View.ld_unit_zero (S := S1x128) hz2]
  exact flushed_of t _ _ (tile_value m c t)

/-- An index of the result array is in point `t`'s block iff each coordinate is in the block's range on its axis. -/
theorem mem_blk (t : Fin cfg0.N) (i : S10x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v5).slice (win0_2.rect t)).set ↔ _
  rw [View.set_slice_whole, Rect.mem_set_unit]
  exact Iff.rfl

/-- Every entry of the result array is in the block of the point numbered by its first coordinate. -/
theorem cover (i : S10x1x1.Idx) :
    ∃ t : Fin cfg0.N, (cfg0.win 2).flush t = true ∧ i ∈ ((cfg0.win 2).blk t).view.set := by
  have h0 : (i 0).val < 10 := (i 0).isLt
  have h1 : (i 1).val < 1 := (i 1).isLt
  have h2 : (i 2).val < 1 := (i 2).isLt
  obtain ⟨t, ht⟩ : ∃ t : Fin cfg0.N, t.val = (i 0).val := ⟨⟨(i 0).val, h0.trans_eq N_0.symm⟩, rfl⟩
  refine ⟨t, flush0_2 t, ?_⟩
  rw [mem_blk]
  obtain ⟨-, -, -, -, e4, e5, e6⟩ := idx_facts t
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 1 ≤ (i 2).val ∧ (i 2).val < win0_2.index t (2 : Fin 3) * 1 + 1
    omega

/-- THE ARRAY after the run: the ten partial minima of the region's operands. -/
theorem final (c : Dev nD) :
    (dats m 0 c).arrAt 2 cfg0.N = partials (V m c main_v0) (V m c main_v4) :=
  (dats m 0 c).arrAt_eq_of_cover 2 _ (fun t _ => flushed_eq m c t) cover

end Cert.KernelIdeal.Tile

end
-- ==== Proof.HostPrefix.lean ====
/-
  What the region finds in its two operands, read at an index. Before the region the program reshapes the table
  [1000000, 32] to [250000, 128], which keeps the row-major position: entry (R, l) of the packed table is entry
  (4·R + l / 32, l mod 32) of the table. It tiles the measured row four times: reshaped to [1, 32], broadcast to
  [4, 32], flattened to [128] and reshaped to [1, 128], so entry (0, l) of the tiled row is entry l mod 32 of the
  measured row.
-/
import proofs.«136762_j20109036880302_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The packed table as the region finds it: the reshape of the table. -/
theorem V_packed (c : Dev nD) : (V m c main_v0 : S250000x128.Idx → EReal)
    = shapeCast S250000x128 (m ((c : Thread nD τ).loc main_arg0)) shapeCasts_S1000000x32_S250000x128 := by
  show StableHlo.after hostOps0 (fun b => m (c, b)) (Proc.devRef .tc main_v0) = _
  after_results
  rfl

/-- The tiled row as the region finds it: reshape, broadcast to four rows, flatten, reshape. -/
theorem V_tiled (c : Dev nD) : (V m c main_v4 : S1x128.Idx → EReal)
    = shapeCast S1x128 (shapeCast S128 (broadcastInDim S4x32 ![0, 1] bcast_S1x32_S4x32_0_1
        (shapeCast S1x32 (m ((c : Thread nD τ).loc main_arg1)) shapeCasts_S32_S1x32)) shapeCasts_S4x32_S128)
        shapeCasts_S128_S1x128 := by
  show StableHlo.after hostOps0 (fun b => m (c, b)) (Proc.devRef .tc main_v4) = _
  after_results
  rfl

/-- Entry (R, l) of a [1000000, 32] array reshaped to [250000, 128] is its entry (4·R + l / 32, l mod 32). -/
theorem packed_apply (x : S1000000x32.Idx → EReal) (R : Fin 250000) (l : Fin 128) :
    shapeCast S250000x128 x shapeCasts_S1000000x32_S250000x128 (ix2 R l)
      = x (ix2 (⟨4 * R.val + l.val / 32, by omega⟩ : Fin 1000000) (⟨l.val % 32, by omega⟩ : Fin 32)) := by
  refine shapeCast_apply x _ (ix2 R l) _ ?_
  rw [Shape.rowMajor_val_two, Shape.rowMajor_val_two]
  show (4 * R.val + l.val / 32) * 32 + l.val % 32 = R.val * 128 + l.val
  omega

/-- Entry (0, l) of the tiled row is entry l mod 32 of the measured row. -/
theorem tiled_apply (x : S32.Idx → EReal) (l : Fin 128) :
    shapeCast S1x128 (shapeCast S128 (broadcastInDim S4x32 ![0, 1] bcast_S1x32_S4x32_0_1
        (shapeCast S1x32 x shapeCasts_S32_S1x32)) shapeCasts_S4x32_S128) shapeCasts_S128_S1x128 (ix2 (0 : Fin 1) l)
      = x (ix1 (⟨l.val % 32, by omega⟩ : Fin 32)) := by
  refine (shapeCast_apply _ _ (ix2 (0 : Fin 1) l) (ix1 l) ?_).trans ?_
  · rw [Shape.rowMajor_val_one, Shape.rowMajor_val_two]; show l.val = 0 * 128 + l.val; omega
  refine (shapeCast_apply _ _ (ix1 l) (ix2 (⟨l.val / 32, by omega⟩ : Fin 4) (⟨l.val % 32, by omega⟩ : Fin 32)) ?_).trans ?_
  · rw [Shape.rowMajor_val_one, Shape.rowMajor_val_two]; show l.val / 32 * 32 + l.val % 32 = l.val; omega
  refine (broadcastInDim_apply _ _ _ _ (ix2 (0 : Fin 1) (⟨l.val % 32, by omega⟩ : Fin 32)) (fun a => ?_)).trans ?_
  · match a with
    | ⟨0, _⟩ => rfl
    | ⟨1, _⟩ => rfl
  refine shapeCast_apply _ _ _ (ix1 (⟨l.val % 32, by omega⟩ : Fin 32)) ?_
  rw [Shape.rowMajor_val_one, Shape.rowMajor_val_two]; show l.val % 32 = 0 * 32 + l.val % 32; omega

end Cert.KernelIdeal.Tile

end
-- ==== Proof.KernelValue.lean ====
/-
  The kernel's result. After the region the program takes the minimum, from plus infinity, of the ten partial
  minima. A minimum of minima is the minimum over all (tile, packed row, group) triples; triple (t, r, j) names table
  row 100000·t + 4·r + j, every table row exactly so, and its group sum IS that row's squared distance: lane
  32·j + a of packed row 25000·t + r is column a of that table row (the reshape keeps row-major positions), and the
  tiled row's lane 32·j + a is the measured row's entry a. So the kernel's number is the least squared distance.
-/
import proofs.«136762_j20109036880302_2_alg».proof.Proof.Gen.KernelIdeal.Frame
import proofs.«136762_j20109036880302_2_alg».proof.Proof.TileArray
import proofs.«136762_j20109036880302_2_alg».proof.Proof.HostPrefix
import proofs.«136762_j20109036880302_2_alg».proof.Proof.LibMinFold
import proofs.«136762_j20109036880302_2_alg».proof.Proof.MinSqDist
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.TcCoe Idealize.SL.Sem
open Idealize.ShloMosaic.StableHlo Idealize.ShloMosaic.ValueIdx Cert.MinSqDist Cert.LibMinFold

/-- Lane 32·j + a of packed row 25000·t + r is column a of table row 100000·t + 4·r + j. -/
theorem packed_term (x : S1000000x32.Idx → EReal) (t : Fin 10) (r : Fin 25000) (j : Fin 4) (a : Fin 32) :
    shapeCast S250000x128 x shapeCasts_S1000000x32_S250000x128 (ix2 (packedRow t r) (lane j a))
      = x (ix2 (tableRow t r j) a) :=
  (packed_apply x (packedRow t r) (lane j a)).trans (congrArg₂ (fun u v => x (ix2 u v))
    (Fin.ext (by
      have := a.isLt; have := j.isLt
      show 4 * (25000 * t.val + r.val) + (32 * j.val + a.val) / 32 = 100000 * t.val + 4 * r.val + j.val
      omega))
    (Fin.ext (by
      have := a.isLt
      show (32 * j.val + a.val) % 32 = a.val
      omega)))

/-- Lane 32·j + a of the tiled row is entry a of the measured row. -/
theorem tiled_term (x : S32.Idx → EReal) (j : Fin 4) (a : Fin 32) :
    shapeCast S1x128 (shapeCast S128 (broadcastInDim S4x32 ![0, 1] bcast_S1x32_S4x32_0_1
        (shapeCast S1x32 x shapeCasts_S32_S1x32)) shapeCasts_S4x32_S128) shapeCasts_S128_S1x128 (ix2 (0 : Fin 1) (lane j a))
      = x (ix1 a) :=
  (tiled_apply x (lane j a)).trans (congrArg (fun v => x (ix1 v))
    (Fin.ext (by
      have := a.isLt
      show (32 * j.val + a.val) % 32 = a.val
      omega)))

variable (m : (ℓ : Loc nD τ sig) → Buf (Elt Ideal) ℓ) (ρ : Dev nD → PrngReg)

/-- The least of the ten partial minima of the region's operands is the least squared distance of the arguments. -/
theorem partials_min (c : Dev nD) :
    Finset.univ.fold min ⊤ (partials (V m c main_v0) (V m c main_v4))
      = minSqDist (m ((c.tc : Thread nD τ).loc main_arg0)) (m ((c.tc : Thread nD τ).loc main_arg1)) := by
  refine (fold_min_top_comp_surj (fun t : Fin 10 => (ix3 t (0 : Fin 1) (0 : Fin 1) : S10x1x1.Idx)) ?_ _).symm.trans ?_
  · intro z
    refine ⟨⟨(z 0).val, (z 0).isLt⟩, ?_⟩
    funext b
    match b with
    | ⟨0, _⟩ => rfl
    | ⟨1, _⟩ => apply Fin.ext; have h : (z 1).val < 1 := (z 1).isLt; show 0 = (z 1).val; omega
    | ⟨2, _⟩ => apply Fin.ext; have h : (z 2).val < 1 := (z 2).isLt; show 0 = (z 2).val; omega
  show Finset.univ.fold min ⊤ (fun t : Fin 10 => tileMin (V m c main_v0) (V m c main_v4) t) = _
  unfold tileMin
  refine (fold_min_top_nested (groupSum (V m c main_v0) (V m c main_v4))).trans ?_
  unfold minSqDist
  refine Eq.trans ?_ (fold_min_top_comp_surj (fun q : Fin 10 × (Fin 25000 × Fin 4) => tableRow q.1 q.2.1 q.2.2)
    tableRow_surjective (sqdist (m ((c.tc : Thread nD τ).loc main_arg0)) (m ((c.tc : Thread nD τ).loc main_arg1))))
  refine congrArg (Finset.univ.fold min ⊤) (funext fun q => ?_)
  obtain ⟨t, r, j⟩ := q
  unfold groupSum sqdist
  refine Finset.sum_congr rfl fun a _ => ?_
  rw [V_packed, V_tiled, packed_term, tiled_term]

/-- The program's result buffer after the lines that follow the region. -/
theorem tail_eq (c : Dev nD) :
    Pipeline.afterTail₀ cfgs (dats m) 0 (V0 m) [hostOps1] c main_v6
      = fun _ => minSqDist (m ((c.tc : Thread nD τ).loc main_arg0)) (m ((c.tc : Thread nD τ).loc main_arg1)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = partials (V m c main_v0) (V m c main_v4) :=
    (Pipeline.withArrays_arr spec0 launch0.win.arr_inj c _ _ 2).trans (final m c)
  rw [hw]
  funext j
  refine (hostReduce_minimumf_total _ _ reducesTo_S10x1x1_S_d0_1_2 (fun b => b.elim0) h_S_ j).trans ?_
  show Finset.univ.fold min (Ideal.ofBits .f32 0x7F800000#32) _ = _
  rw [ofBits_posInf_f32]
  exact partials_min m c

/-- THE KERNEL'S RUN: every weakly fair execution terminates with the result buffer at the least squared distance of
    the arguments, the arguments unchanged. -/
theorem run : θ_run defs (onTc (τ := τ) (main (F := Ideal))) ⟨m, fun _ => 0, ρ⟩ fun r => ∀ c : Dev nD,
      r.2.mem ((c.tc : Thread nD τ).loc main_v6)
        = (fun _ => minSqDist (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v6 (Pipeline.mem_restRefs_of main_v6 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Tile

end
-- ==== Proof.RefValue.lean ====
/-
  The reference computes the specification. Its program broadcasts the measured row over the table, subtracts,
  squares, sums each row's 32 columns from zero, and takes the minimum of the 1,000,000 row sums from plus infinity.
  Read at row `r`, the row sum is the squared distance of row `r` (`rowsum_eq`); the final minimum runs over every
  row, and the rows are the indices `ix1 r` (`result_eq`).
-/
import proofs.«136762_j20109036880302_2_alg».proof.Proof.Gen.ReferenceIdeal.Read
import proofs.«136762_j20109036880302_2_alg».proof.Proof.MinSqDist
import proofs.«136762_j20109036880302_2_alg».proof.Proof.LibMinFold

noncomputable section

namespace Cert.ReferenceIdeal.RefValue

open Cert.ReferenceIdeal Cert.ReferenceIdeal.Gen Cert.ReferenceIdeal.Read
open Idealize.ShloMosaic Idealize.ShloMosaic.ValueIdx Cert.MinSqDist

/-- The reference's sum over a row's columns is that row's squared distance. -/
theorem rowsum_eq (x0 : (⟨S1000000x32, .f32⟩ : BufTy).Contents (Elt Ideal)) (x1 : (⟨S32, .f32⟩ : BufTy).Contents (Elt Ideal))
    (r : Fin 1000000) : val_main_v4 (F := Ideal) x0 x1 (ix1 r) = sqdist x0 x1 r := by
  rw [val_main_v4_apply, val_main_cst_apply]
  show Ideal.ofBits .f32 0x00000000#32 + _ = _
  rw [Ideal.ofBits_zero_f32, zero_add]
  unfold sqdist
  refine Finset.sum_congr rfl fun k _ => ?_
  rw [val_main_v3_apply, val_main_v2_apply, val_main_v1_apply, val_main_v0_apply]
  have e1 : idx_main_v4 (ix1 r) k = ix2 r k :=
    funext fun a => Fin.ext (by match a with | ⟨0, _⟩ => rfl | ⟨1, _⟩ => rfl)
  have e2 : idx_main_v0 (idx_main_v1 (ix2 r k)) = ix1 k :=
    funext fun a => Fin.ext (by match a with | ⟨0, _⟩ => rfl)
  rw [e1, e2]
  rfl

/-- The reference's result is the least squared distance over the table. -/
theorem result_eq (x0 : (⟨S1000000x32, .f32⟩ : BufTy).Contents (Elt Ideal)) (x1 : (⟨S32, .f32⟩ : BufTy).Contents (Elt Ideal)) :
    val_main_v5 (F := Ideal) x0 x1 = fun _ => minSqDist x0 x1 := by
  funext j
  unfold val_main_v5
  refine (Cert.LibMinFold.hostReduce_minimumf_total (val_main_v4 (F := Ideal) x0 x1) (val_main_cst_0 (F := Ideal))
    reducesTo_S1000000_S_d0 (fun b => b.elim0) h_S_ j).trans ?_
  rw [val_main_cst_0_apply]
  show Finset.univ.fold min (Ideal.ofBits .f32 0x7F800000#32) _ = _
  rw [Cert.LibMinFold.ofBits_posInf_f32]
  unfold minSqDist
  refine (Cert.LibMinFold.fold_min_top_comp_surj (fun r : Fin 1000000 => (ix1 r : S1000000.Idx)) ?_
    (val_main_v4 (F := Ideal) x0 x1)).symm.trans ?_
  · intro i; exact ⟨i 0, (eq_ix1 i).symm⟩
  · exact congrArg (Finset.univ.fold min ⊤) (funext fun r => rowsum_eq x0 x1 r)

end Cert.ReferenceIdeal.RefValue

end
-- ==== Proof.lean ====
/-
  The least squared distance of a table's rows to a measured row, computed two ways.

  The reference subtracts the measured row `ph` (32 numbers) from each of the 1,000,000 rows of the table `pp`, squares,
  sums each row's 32 columns and takes the minimum of the row sums. The kernel reshapes the table to 250,000 rows of 128
  lanes — four table rows per packed row —, tiles `ph` four times, and on each of ten tiles of 25,000 packed rows
  squares the differences lane by lane, recovers the four sums of 32 per packed row as a product with the 0/1 matrix
  "lane l belongs to group l / 32", and takes the minimum of the tile's 100,000 sums; the program then takes the minimum of
  the ten tile minima.

  On the extended reals the two are the same number. A weighted sum with weights 1 and 0 is the sum over the lanes of weight
  1 (x · 1 = x and x · 0 = 0 for every extended real, the infinities included); lane 32·j + a of packed row R is column a
  of table row 4·R + j; a minimum of minima is the minimum over all the pairs; and the triples (tile, packed row, group)
  name every table row. Nothing here needs the inputs to be finite, so the precondition is never opened.

  The frames of the two kernel programs are the generated ones; the reference's frame is its generated run with the result
  dropped; the idealization rewrote nothing, so `preserves` is `True`.
-/
import proofs.«136762_j20109036880302_2_alg».proof.Defs
import proofs.«136762_j20109036880302_2_alg».proof.Proof.Gen.Kernel
import proofs.«136762_j20109036880302_2_alg».proof.Proof.Gen.Kernel.Skeleton
import proofs.«136762_j20109036880302_2_alg».proof.Proof.Gen.Kernel.Launch
import proofs.«136762_j20109036880302_2_alg».proof.Proof.Gen.Kernel.Points
import proofs.«136762_j20109036880302_2_alg».proof.Proof.Gen.Kernel.Frame
import proofs.«136762_j20109036880302_2_alg».proof.Proof.Gen.KernelIdeal
import proofs.«136762_j20109036880302_2_alg».proof.Proof.Gen.KernelIdeal.Skeleton
import proofs.«136762_j20109036880302_2_alg».proof.Proof.Gen.KernelIdeal.Launch
import proofs.«136762_j20109036880302_2_alg».proof.Proof.Gen.KernelIdeal.Points
import proofs.«136762_j20109036880302_2_alg».proof.Proof.Gen.KernelIdeal.Frame
import proofs.«136762_j20109036880302_2_alg».proof.Proof.Gen.ReferenceIdeal
import proofs.«136762_j20109036880302_2_alg».proof.Proof.Gen.Pre_finite_inputs
import proofs.«136762_j20109036880302_2_alg».proof.Proof.Gen.ReferenceIdeal.Run
import proofs.«136762_j20109036880302_2_alg».proof.Proof.Gen.ReferenceIdeal.Read
import proofs.«136762_j20109036880302_2_alg».proof.Proof.KernelValue
import proofs.«136762_j20109036880302_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the least squared distance of the table's rows to the measured row: the kernel's run
    (tile minima, then their minimum) and the reference's (row sums, then their minimum), from arguments that agree. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
